-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_v119) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x8 : Shape := ⟨2, ![8388608, 8]⟩
abbrev S8388608x1 : Shape := ⟨2, ![8388608, 1]⟩
abbrev S_ : Shape := ⟨0, ![]⟩

class Facts : Prop where
  bcast_S_S8388608x8 : S_.BroadcastsInDim S8388608x8 (![] : Fin 0 → Fin S8388608x8.rank)
  reducesTo_S8388608x8_S_d0_1 : S8388608x8.ReducesTo [0, 1] S_
  h_S_ : 0 < S_.numel
  bcast_S_S8388608x1 : S_.BroadcastsInDim S8388608x1 (![] : Fin 0 → Fin S8388608x1.rank)
  reducesTo_S8388608x1_S_d0_1 : S8388608x1.ReducesTo [0, 1] S_

variable [Facts]

def fn {F : FTy → Type} [FloatOps F] (main_arg0 : FVec F S8388608x8 .f32) (main_arg1 : FVec F S8388608x8 .f32) (main_arg2 : FVec F S8388608x1 .f32) : IVec S_ 1 :=
  let main_v0 : FVec F S8388608x8 .f32 := Host.absf main_arg0
  let main_cst : FVec F S_ .f32 := constant S_ .f32 0x7F800000#32
  let main_v1 : FVec F S8388608x8 .f32 := broadcastInDim S8388608x8 ![] bcast_S_S8388608x8 main_cst
  let main_v2 : IVec S8388608x8 1 := cmpf .olt main_v0 main_v1
  let main_c : IVec S_ 1 := constantI S_ 1 1#1
  let main_v3 : IVec S_ 1 := (fun x v => Host.reduce IntOp.andi x v reducesTo_S8388608x8_S_d0_1 h_S_) main_v2 main_c
  let main_v4 : FVec F S8388608x8 .f32 := Host.absf main_arg1
  let main_cst_0 : FVec F S_ .f32 := constant S_ .f32 0x7F800000#32
  let main_v5 : FVec F S8388608x8 .f32 := broadcastInDim S8388608x8 ![] bcast_S_S8388608x8 main_cst_0
  let main_v6 : IVec S8388608x8 1 := cmpf .olt main_v4 main_v5
  let main_c_1 : IVec S_ 1 := constantI S_ 1 1#1
  let main_v7 : IVec S_ 1 := (fun x v => Host.reduce IntOp.andi x v reducesTo_S8388608x8_S_d0_1 h_S_) main_v6 main_c_1
  let main_v8 : IVec S_ 1 := andi main_v3 main_v7
  let main_v9 : FVec F S8388608x1 .f32 := Host.absf main_arg2
  let main_cst_2 : FVec F S_ .f32 := constant S_ .f32 0x7F800000#32
  let main_v10 : FVec F S8388608x1 .f32 := broadcastInDim S8388608x1 ![] bcast_S_S8388608x1 main_cst_2
  let main_v11 : IVec S8388608x1 1 := cmpf .olt main_v9 main_v10
  let main_c_3 : IVec S_ 1 := constantI S_ 1 1#1
  let main_v12 : IVec S_ 1 := (fun x v => Host.reduce IntOp.andi x v reducesTo_S8388608x1_S_d0_1 h_S_) main_v11 main_c_3
  let main_v13 : IVec S_ 1 := andi main_v8 main_v12
  main_v13
-- ==== Kernel.lean ====
abbrev S8388608x8 : Shape := ⟨2, ![8388608, 8]⟩
abbrev S8388608x1 : Shape := ⟨2, ![8388608, 1]⟩
abbrev S1024x8 : Shape := ⟨2, ![1024, 8]⟩
abbrev S1024x1 : Shape := ⟨2, ![1024, 1]⟩

abbrev nBuf : Space → Nat
  | .hbm => 5
  | .vmem => 10
  | .smem => 0
  | _ => 0

abbrev bufTy : (tb : Table) → Fin (tcTables nBuf tb) → BufTy
  | .hbm, ⟨0, _⟩ => ⟨S8388608x8, .f32⟩
  | .hbm, ⟨1, _⟩ => ⟨S8388608x8, .f32⟩
  | .hbm, ⟨2, _⟩ => ⟨S8388608x1, .f32⟩
  | .hbm, ⟨3, _⟩ => ⟨S8388608x8, .f32⟩
  | .hbm, ⟨4, _⟩ => ⟨S8388608x1, .f32⟩
  | .local _ .vmem, ⟨0, _⟩ => ⟨S1024x8, .f32⟩
  | .local _ .vmem, ⟨1, _⟩ => ⟨S1024x8, .f32⟩
  | .local _ .vmem, ⟨2, _⟩ => ⟨S1024x8, .f32⟩
  | .local _ .vmem, ⟨3, _⟩ => ⟨S1024x8, .f32⟩
  | .local _ .vmem, ⟨4, _⟩ => ⟨S1024x1, .f32⟩
  | .local _ .vmem, ⟨5, _⟩ => ⟨S1024x1, .f32⟩
  | .local _ .vmem, ⟨6, _⟩ => ⟨S1024x8, .f32⟩
  | .local _ .vmem, ⟨7, _⟩ => ⟨S1024x8, .f32⟩
  | .local _ .vmem, ⟨8, _⟩ => ⟨S1024x1, .f32⟩
  | .local _ .vmem, ⟨9, _⟩ => ⟨S1024x1, .f32⟩
  | _, _ => ⟨S8388608x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x8_S1024x8_0_0 : ∀ a, (![0, 0] : Fin 2 → Nat) a + S1024x8.size a ≤ S1024x8.size a
  h_S1024x8 : 0 < S1024x8.numel
  inb_S1024x1_S1024x1_0_0 : ∀ a, (![0, 0] : Fin 2 → Nat) a + S1024x1.size a ≤ S1024x1.size a
  h_S1024x1 : 0 < S1024x1.numel
  slices_S1024x8_o0_7_S1024x1 : S1024x8.Slices ![0, 7] S1024x1
  slices_S1024x8_o0_6_S1024x1 : S1024x8.Slices ![0, 6] S1024x1
  slices_S1024x8_o0_5_S1024x1 : S1024x8.Slices ![0, 5] S1024x1
  slices_S1024x8_o0_4_S1024x1 : S1024x8.Slices ![0, 4] S1024x1
  slices_S1024x8_o0_3_S1024x1 : S1024x8.Slices ![0, 3] S1024x1
  slices_S1024x8_o0_2_S1024x1 : S1024x8.Slices ![0, 2] S1024x1
  slices_S1024x8_o0_1_S1024x1 : S1024x8.Slices ![0, 1] S1024x1
  slices_S1024x8_o0_0_S1024x1 : S1024x8.Slices ![0, 0] S1024x1
  concatenates_S1024x1_S1024x1_S1024x1_S1024x1_S1024x1_S1024x1_S1024x1_S1024x1_S1024x8_d1 : Shape.Concatenates [S1024x1, S1024x1, S1024x1, S1024x1, S1024x1, S1024x1, S1024x1, S1024x1] S1024x8 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8.size a ≤ S8388608x8.size a
  hwx0_0 : ∀ i : grid0.Coords, EltTy.bits .f32 = 32 ∨ (Rect.block (s := S8388608x8) S1024x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8.size a ≤ S8388608x8.size a
  hwx0_1 : ∀ i : grid0.Coords, EltTy.bits .f32 = 32 ∨ (Rect.block (s := S8388608x8) S1024x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8388608x1.size a
  hwx0_2 : ∀ i : grid0.Coords, EltTy.bits .f32 = 32 ∨ (Rect.block (s := S8388608x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S8388608x8.size a
  hwx0_3 : ∀ i : grid0.Coords, EltTy.bits .f32 = 32 ∨ (Rect.block (s := S8388608x8) S1024x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8388608x1.size a
  hwx0_4 : ∀ i : grid0.Coords, EltTy.bits .f32 = 32 ∨ (Rect.block (s := S8388608x1) S1024x1.size (cc0_transform_4 i) (hinb0_4 i)).WholeWords (EltTy.packing .f32)

variable [Facts₀]

abbrev win0_0 : Pipeline.Window sig grid0 :=
  Pipeline.Window.ofSpec (Memref.whole main_arg0) S1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1024x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8388608x8 : Shape := ⟨2, ![8388608, 8]⟩
abbrev S8388608x1 : Shape := ⟨2, ![8388608, 1]⟩
abbrev S_ : Shape := ⟨0, ![]⟩

abbrev nBuf : Space → Nat
  | .hbm => 140
  | .vmem => 0
  | .smem => 0
  | _ => 0

abbrev hbmTy0_0 (i : Nat) : BufTy := match i % 128 with
  | 0 => ⟨S8388608x8, .f32⟩
  | 1 => ⟨S8388608x8, .f32⟩
  | 2 => ⟨S8388608x1, .f32⟩
  | 3 => ⟨S8388608x1, .f32⟩
  | 4 => ⟨S8388608x1, .f32⟩
  | 5 => ⟨S8388608x1, .f32⟩
  | 6 => ⟨S_, .f32⟩
  | 7 => ⟨S8388608x1, .f32⟩
  | 8 => ⟨S8388608x1, .f32⟩
  | 9 => ⟨S8388608x1, .f32⟩
  | 10 => ⟨S8388608x1, .f32⟩
  | 11 => ⟨S8388608x1, .f32⟩
  | 12 => ⟨S_, .f32⟩
  | 13 => ⟨S8388608x1, .f32⟩
  | 14 => ⟨S8388608x1, .f32⟩
  | 15 => ⟨S8388608x1, .f32⟩
  | 16 => ⟨S8388608x1, .f32⟩
  | 17 => ⟨S8388608x1, .f32⟩
  | 18 => ⟨S8388608x1, .f32⟩
  | 19 => ⟨S8388608x1, .f32⟩
  | 20 => ⟨S8388608x1, .f32⟩
  | 21 => ⟨S8388608x1, .f32⟩
  | 22 => ⟨S8388608x1, .f32⟩
  | 23 => ⟨S_, .f32⟩
  | 24 => ⟨S8388608x1, .f32⟩
  | 25 => ⟨S8388608x1, .f32⟩
  | 26 => ⟨S8388608x1, .f32⟩
  | 27 => ⟨S8388608x1, .f32⟩
  | 28 => ⟨S8388608x1, .f32⟩
  | 29 => ⟨S_, .f32⟩
  | 30 => ⟨S8388608x1, .f32⟩
  | 31 => ⟨S8388608x1, .f32⟩
  | 32 => ⟨S8388608x1, .f32⟩
  | 33 => ⟨S8388608x1, .f32⟩
  | 34 => ⟨S8388608x1, .f32⟩
  | 35 => ⟨S8388608x1, .f32⟩
  | 36 => ⟨S8388608x1, .f32⟩
  | 37 => ⟨S8388608x1, .f32⟩
  | 38 => ⟨S8388608x1, .f32⟩
  | 39 => ⟨S8388608x1, .f32⟩
  | 40 => ⟨S_, .f32⟩
  | 41 => ⟨S8388608x1, .f32⟩
  | 42 => ⟨S8388608x1, .f32⟩
  | 43 => ⟨S8388608x1, .f32⟩
  | 44 => ⟨S8388608x1, .f32⟩
  | 45 => ⟨S8388608x1, .f32⟩
  | 46 => ⟨S_, .f32⟩
  | 47 => ⟨S8388608x1, .f32⟩
  | 48 => ⟨S8388608x1, .f32⟩
  | 49 => ⟨S8388608x1, .f32⟩
  | 50 => ⟨S8388608x1, .f32⟩
  | 51 => ⟨S8388608x1, .f32⟩
  | 52 => ⟨S8388608x1, .f32⟩
  | 53 => ⟨S8388608x1, .f32⟩
  | 54 => ⟨S8388608x1, .f32⟩
  | 55 => ⟨S8388608x1, .f32⟩
  | 56 => ⟨S8388608x1, .f32⟩
  | 57 => ⟨S_, .f32⟩
  | 58 => ⟨S8388608x1, .f32⟩
  | 59 => ⟨S8388608x1, .f32⟩
  | 60 => ⟨S8388608x1, .f32⟩
  | 61 => ⟨S8388608x1, .f32⟩
  | 62 => ⟨S8388608x1, .f32⟩
  | 63 => ⟨S_, .f32⟩
  | 64 => ⟨S8388608x1, .f32⟩
  | 65 => ⟨S8388608x1, .f32⟩
  | 66 => ⟨S8388608x1, .f32⟩
  | 67 => ⟨S8388608x1, .f32⟩
  | 68 => ⟨S8388608x1, .f32⟩
  | 69 => ⟨S8388608x1, .f32⟩
  | 70 => ⟨S8388608x1, .f32⟩
  | 71 => ⟨S8388608x1, .f32⟩
  | 72 => ⟨S8388608x1, .f32⟩
  | 73 => ⟨S8388608x1, .f32⟩
  | 74 => ⟨S_, .f32⟩
  | 75 => ⟨S8388608x1, .f32⟩
  | 76 => ⟨S8388608x1, .f32⟩
  | 77 => ⟨S8388608x1, .f32⟩
  | 78 => ⟨S8388608x1, .f32⟩
  | 79 => ⟨S8388608x1, .f32⟩
  | 80 => ⟨S_, .f32⟩
  | 81 => ⟨S8388608x1, .f32⟩
  | 82 => ⟨S8388608x1, .f32⟩
  | 83 => ⟨S8388608x1, .f32⟩
  | 84 => ⟨S8388608x1, .f32⟩
  | 85 => ⟨S8388608x1, .f32⟩
  | 86 => ⟨S8388608x1, .f32⟩
  | 87 => ⟨S8388608x1, .f32⟩
  | 88 => ⟨S8388608x1, .f32⟩
  | 89 => ⟨S8388608x1, .f32⟩
  | 90 => ⟨S8388608x1, .f32⟩
  | 91 => ⟨S_, .f32⟩
  | 92 => ⟨S8388608x1, .f32⟩
  | 93 => ⟨S8388608x1, .f32⟩
  | 94 => ⟨S8388608x1, .f32⟩
  | 95 => ⟨S8388608x1, .f32⟩
  | 96 => ⟨S8388608x1, .f32⟩
  | 97 => ⟨S_, .f32⟩
  | 98 => ⟨S8388608x1, .f32⟩
  | 99 => ⟨S8388608x1, .f32⟩
  | 100 => ⟨S8388608x1, .f32⟩
  | 101 => ⟨S8388608x1, .f32⟩
  | 102 => ⟨S8388608x1, .f32⟩
  | 103 => ⟨S8388608x1, .f32⟩
  | 104 => ⟨S8388608x1, .f32⟩
  | 105 => ⟨S8388608x1, .f32⟩
  | 106 => ⟨S8388608x1, .f32⟩
  | 107 => ⟨S8388608x1, .f32⟩
  | 108 => ⟨S_, .f32⟩
  | 109 => ⟨S8388608x1, .f32⟩
  | 110 => ⟨S8388608x1, .f32⟩
  | 111 => ⟨S8388608x1, .f32⟩
  | 112 => ⟨S8388608x1, .f32⟩
  | 113 => ⟨S8388608x1, .f32⟩
  | 114 => ⟨S_, .f32⟩
  | 115 => ⟨S8388608x1, .f32⟩
  | 116 => ⟨S8388608x1, .f32⟩
  | 117 => ⟨S8388608x1, .f32⟩
  | 118 => ⟨S8388608x1, .f32⟩
  | 119 => ⟨S8388608x1, .f32⟩
  | 120 => ⟨S8388608x1, .f32⟩
  | 121 => ⟨S8388608x1, .f32⟩
  | 122 => ⟨S8388608x1, .f32⟩
  | 123 => ⟨S8388608x1, .f32⟩
  | 124 => ⟨S8388608x1, .f32⟩
  | 125 => ⟨S_, .f32⟩
  | 126 => ⟨S8388608x1, .f32⟩
  | 127 => ⟨S8388608x1, .f32⟩
  | _ => ⟨S8388608x8, .f32⟩

abbrev hbmTy0_1 (i : Nat) : BufTy := match i % 128 with
  | 0 => ⟨S8388608x1, .f32⟩
  | 1 => ⟨S8388608x1, .f32⟩
  | 2 => ⟨S8388608x1, .f32⟩
  | 3 => ⟨S_, .f32⟩
  | 4 => ⟨S8388608x1, .f32⟩
  | 5 => ⟨S8388608x1, .f32⟩
  | 6 => ⟨S8388608x1, .f32⟩
  | 7 => ⟨S8388608x1, .f32⟩
  | 8 => ⟨S8388608x1, .f32⟩
  | 9 => ⟨S8388608x1, .f32⟩
  | 10 => ⟨S8388608x1, .f32⟩
  | 11 => ⟨S8388608x8, .f32⟩
  | _ => ⟨S8388608x8, .f32⟩

abbrev hbmTy (i : Nat) : BufTy := match i / 128 with
  | 0 => hbmTy0_0 i
  | 1 => hbmTy0_1 i
  | _ => ⟨S8388608x8, .f32⟩

abbrev bufTy : (tb : Table) → Fin (tcTables nBuf tb) → BufTy
  | .hbm, ⟨i, _⟩ => hbmTy i
  | _, _ => ⟨S8388608x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_6 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_7 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_8 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_cst_9 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_cst_10 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_cst_11 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_cst_12 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_cst_13 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_14 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩

abbrev nD : Nat := 1
abbrev τ : Topo := Topo.v7x

variable {F : FTy → Type} [FloatOps F]

class Facts₀ : Prop where
  slices_S8388608x8_S8388608x1_0_7 : S8388608x8.Slices ![0, 7] S8388608x1
  bcast_S_S8388608x1 : S_.BroadcastsInDim S8388608x1 (![] : Fin 0 → Fin S8388608x1.rank)
  slices_S8388608x8_S8388608x1_0_6 : S8388608x8.Slices ![0, 6] S8388608x1
  slices_S8388608x8_S8388608x1_0_5 : S8388608x8.Slices ![0, 5] S8388608x1
  slices_S8388608x8_S8388608x1_0_4 : S8388608x8.Slices ![0, 4] S8388608x1
  slices_S8388608x8_S8388608x1_0_3 : S8388608x8.Slices ![0, 3] S8388608x1
  slices_S8388608x8_S8388608x1_0_2 : S8388608x8.Slices ![0, 2] S8388608x1
  slices_S8388608x8_S8388608x1_0_1 : S8388608x8.Slices ![0, 1] S8388608x1
  slices_S8388608x8_S8388608x1_0_0 : S8388608x8.Slices ![0, 0] S8388608x1
  concatenates_S8388608x1_S8388608x1_S8388608x1_S8388608x1_S8388608x1_S8388608x1_S8388608x1_S8388608x1_S8388608x8_d1 : Shape.Concatenates [S8388608x1, S8388608x1, S8388608x1, S8388608x1, S8388608x1, S8388608x1, S8388608x1, S8388608x1] S8388608x8 1

variable [Facts₀]

class Facts : Prop extends Facts₀ where

variable [Facts]
-- ==== Proof.RippleSpec.lean ====
/-
  An 8-digit ripple-carry adder on arithmetic digits, one row at a time.

  A row holds two words of eight digits, a and b (digit 0 the most significant, digit 7 the least), and a carry-in c.
  On digits 0 and 1 the exclusive or is x ⊕ y = x + y − 2·x·y, so a full adder's sum digit is (a ⊕ b) ⊕ c and its
  carry-out is a·b + c·(a ⊕ b). The carry ripples from digit 7 up to digit 0: digit j is added with the carry left by
  digits 7, 6, …, j + 1, and the carry left by digit 0 is the row's carry-out. Here these are plain expressions in the
  float operations + , − , · and the constant 2, in one fixed order of evaluation; nothing is assumed of the
  digits' values and no law of arithmetic is used, so the definitions read the same at every float instance.

  An array of n rows is added row by row: the sum array [n, 8] and the carry array [n, 1] at a row depend on that row
  of the three argument arrays only. Column k of an [n, 8] array, taken as the unit-stride slice [0:n, k:k+1] and read
  at row r, is the array's entry (r, k).
-/
import Idealize.ShloMosaic.Lib.ValueIdx
import Idealize.ShloMosaic.Lib.Pipeline.Value

namespace Cert.Ripple

open Idealize.ShloMosaic Idealize.ShloMosaic.ValueIdx

variable {F : FTy → Type} [FloatOps F]

/-! ## One row -/

/-- The constant 2 (the f32 word 0x40000000). -/
def two : F .f32 := FloatOps.ofBits .f32 0x40000000#32

/-- x ⊕ y = (x + y) − (2·x)·y. -/
def xor2 (x y : F .f32) : F .f32 := FloatOps.subf (FloatOps.addf x y) (FloatOps.mulf (FloatOps.mulf two x) y)

/-- A full adder's carry-out: a·b + c·(a ⊕ b). -/
def carryStep (a b c : F .f32) : F .f32 := FloatOps.addf (FloatOps.mulf a b) (FloatOps.mulf c (xor2 a b))

/-- The carry after the k least significant digits (digits 7, 6, …, 8 − k) have been added, from carry-in c. -/
def carryAfter (a b : Fin 8 → F .f32) (c : F .f32) : Nat → F .f32
  | 0 => c
  | k + 1 => carryStep (a ⟨7 - k, by omega⟩) (b ⟨7 - k, by omega⟩) (carryAfter a b c k)

/-- Sum digit j: (a j ⊕ b j) ⊕ the carry left by the 7 − j digits below it. -/
def sumDigit (a b : Fin 8 → F .f32) (c : F .f32) (j : Fin 8) : F .f32 :=
  xor2 (xor2 (a j) (b j)) (carryAfter a b c (7 - j.val))

/-- The row's carry-out: the carry after all eight digits. -/
def carryOut (a b : Fin 8 → F .f32) (c : F .f32) : F .f32 := carryAfter a b c 8

/-! ## An array of rows -/

/-- The shape [n, 8] of the word arrays and [n, 1] of the carry arrays. -/
abbrev Arr8 (n : Nat) : Shape := ⟨2, ![n, 8]⟩
abbrev Arr1 (n : Nat) : Shape := ⟨2, ![n, 1]⟩

/-- Sum digit q of row r of the arrays A, B with carry-in array C. -/
def rowSum {n : Nat} (A B : (Arr8 n).Idx → F .f32) (C : (Arr1 n).Idx → F .f32) (r : Fin n) (q : Fin 8) : F .f32 :=
  sumDigit (fun k => A (ix2 r k)) (fun k => B (ix2 r k)) (C (ix2 r (0 : Fin 1))) q

/-- Carry-out of row r. -/
def rowCarry {n : Nat} (A B : (Arr8 n).Idx → F .f32) (C : (Arr1 n).Idx → F .f32) (r : Fin n) : F .f32 :=
  carryOut (fun k => A (ix2 r k)) (fun k => B (ix2 r k)) (C (ix2 r (0 : Fin 1)))

/-- The sum array: entry (r, q) is sum digit q of row r. -/
def sums {n : Nat} (A B : (Arr8 n).Idx → F .f32) (C : (Arr1 n).Idx → F .f32) : (Arr8 n).Idx → F .f32 :=
  fun i => rowSum A B C (i 0) (i 1)

/-- The carry array: entry (r, 0) is the carry-out of row r. -/
def carries {n : Nat} (A B : (Arr8 n).Idx → F .f32) (C : (Arr1 n).Idx → F .f32) : (Arr1 n).Idx → F .f32 :=
  fun i => rowCarry A B C (i 0)

theorem sums_ix2 {n : Nat} (A B : (Arr8 n).Idx → F .f32) (C : (Arr1 n).Idx → F .f32) (r : Fin n) (q : Fin 8) :
    sums A B C (ix2 r q) = rowSum A B C r q := rfl

theorem carries_ix2 {n : Nat} (A B : (Arr8 n).Idx → F .f32) (C : (Arr1 n).Idx → F .f32) (r : Fin n) (z : Fin 1) :
    carries A B C (ix2 r z) = rowCarry A B C r := rfl

/-- A row's sum digits depend on the row's entries only: two triples of arrays (of any heights) that agree on a row
    of each have the same sum digits there. -/
theorem rowSum_congr {n n' : Nat} (A B : (Arr8 n).Idx → F .f32) (C : (Arr1 n).Idx → F .f32)
    (A' B' : (Arr8 n').Idx → F .f32) (C' : (Arr1 n').Idx → F .f32) (r : Fin n) (r' : Fin n')
    (hA : ∀ k : Fin 8, A (ix2 r k) = A' (ix2 r' k)) (hB : ∀ k : Fin 8, B (ix2 r k) = B' (ix2 r' k))
    (hC : C (ix2 r (0 : Fin 1)) = C' (ix2 r' (0 : Fin 1))) (q : Fin 8) :
    rowSum A B C r q = rowSum A' B' C' r' q := by
  unfold rowSum
  rw [show (fun k : Fin 8 => A (ix2 r k)) = fun k => A' (ix2 r' k) from funext hA,
    show (fun k : Fin 8 => B (ix2 r k)) = fun k => B' (ix2 r' k) from funext hB, hC]

/-- The same for the row's carry-out. -/
theorem rowCarry_congr {n n' : Nat} (A B : (Arr8 n).Idx → F .f32) (C : (Arr1 n).Idx → F .f32)
    (A' B' : (Arr8 n').Idx → F .f32) (C' : (Arr1 n').Idx → F .f32) (r : Fin n) (r' : Fin n')
    (hA : ∀ k : Fin 8, A (ix2 r k) = A' (ix2 r' k)) (hB : ∀ k : Fin 8, B (ix2 r k) = B' (ix2 r' k))
    (hC : C (ix2 r (0 : Fin 1)) = C' (ix2 r' (0 : Fin 1))) :
    rowCarry A B C r = rowCarry A' B' C' r' := by
  unfold rowCarry
  rw [show (fun k : Fin 8 => A (ix2 r k)) = fun k => A' (ix2 r' k) from funext hA,
    show (fun k : Fin 8 => B (ix2 r k)) = fun k => B' (ix2 r' k) from funext hB, hC]

/-! ## Columns as slices -/

/-- The column [0:n, k:k+1] is a block of an [n, 8] array. -/
theorem col_slices (n : Nat) (k : Fin 8) : (Arr8 n).Slices ![0, k.val] (Arr1 n) :=
  ⟨rfl, fun a => match a with
    | ⟨0, _⟩ => by show 0 + n ≤ n; omega
    | ⟨1, _⟩ => by show k.val + 1 ≤ 8; omega⟩

/-- Column k read at row r is the entry (r, k). -/
theorem col_apply {α : Type} {n : Nat} (A : (Arr8 n).Idx → α) (k : Fin 8) (h : (Arr8 n).Slices ![0, k.val] (Arr1 n))
    (r : Fin n) : extractStridedSlice (Arr1 n) ![0, k.val] A h (ix2 r (0 : Fin 1)) = A (ix2 r k) :=
  extractStridedSlice_apply ![0, k.val] A h (ix2 r (0 : Fin 1)) (ix2 r k) (fun a => match a with
    | ⟨0, _⟩ => by show r.val = 0 + r.val; omega
    | ⟨1, _⟩ => by show k.val = k.val + 0; omega)

/-- The eight columns of an array read at row r are the row. -/
theorem cols_eq_row {α : Type} {n : Nat} (A : (Arr8 n).Idx → α) (r : Fin n) :
    (fun k : Fin 8 => extractStridedSlice (Arr1 n) ![0, k.val] A (col_slices n k) (ix2 r (0 : Fin 1))) = fun k => A (ix2 r k) :=
  funext fun k => col_apply A k (col_slices n k) r

end Cert.Ripple
-- ==== Proof.RefValue.lean ====
/-
  The reference's two results as functions of its argument arrays, entry by entry.

  The reference adds the two word arrays column by column, from column 7 up to column 0: each column [0:n, k:k+1] is a
  slice of shape [n, 1], every step is an elementwise operation on such columns, and the eight sum columns are joined
  along axis 1, most significant first. Read at row r, each sum column is the row's sum digit (the same expression,
  with column k of A read at row r in place of the digit a k), the joined array at (r, q) is column q at row r, and
  the last carry column at row r is the row's carry-out. So the results are the arrays `sums` and `carries` of
  the row-wise adder.
-/
import proofs.«143201_j23407571764128_2_alg».proof.Proof.Gen.ReferenceIdeal.Read
import proofs.«143201_j23407571764128_2_alg».proof.Proof.RippleSpec

noncomputable section

namespace Cert.ReferenceIdeal.RefValue

open Cert.ReferenceIdeal Cert.ReferenceIdeal.Gen Cert.ReferenceIdeal.Read
open Idealize.ShloMosaic Idealize.ShloMosaic.ValueIdx Cert.Ripple

variable {F : FTy → Type} [FloatOps F]

/-- The eight sum columns in the order the reference joins them: column q holds the sum digits q of all rows. -/
def digitCol (A B : (⟨S8388608x8, .f32⟩ : BufTy).Contents (Elt F)) (C : (⟨S8388608x1, .f32⟩ : BufTy).Contents (Elt F)) :
    Fin 8 → (S8388608x1.Idx → Elt F .f32) := fun q => match q with
  | ⟨0, _⟩ => val_main_v116 (F := F) A B C
  | ⟨1, _⟩ => val_main_v101 (F := F) A B C
  | ⟨2, _⟩ => val_main_v86 (F := F) A B C
  | ⟨3, _⟩ => val_main_v71 (F := F) A B C
  | ⟨4, _⟩ => val_main_v56 (F := F) A B C
  | ⟨5, _⟩ => val_main_v41 (F := F) A B C
  | ⟨6, _⟩ => val_main_v26 (F := F) A B C
  | ⟨7, _⟩ => val_main_v11 (F := F) A B C

/-- Sum column q read at row r is sum digit q of row r: the column's operations, read at one index, are the digit's
    expression over the columns of A and B read at row r, and those are the row's digits. -/
theorem digitCol_apply (A B : (⟨S8388608x8, .f32⟩ : BufTy).Contents (Elt F)) (C : (⟨S8388608x1, .f32⟩ : BufTy).Contents (Elt F))
    (r : Fin 8388608) (q : Fin 8) :
    digitCol A B C q (ix2 r (0 : Fin 1)) = rowSum (n := 8388608) A B C r q := by
  unfold rowSum
  rw [← cols_eq_row A r, ← cols_eq_row B r]
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The joined array at (r, q) is column q at row r: the columns have extent 1 along the joined axis. -/
theorem joined_apply (A B : (⟨S8388608x8, .f32⟩ : BufTy).Contents (Elt F)) (C : (⟨S8388608x1, .f32⟩ : BufTy).Contents (Elt F))
    (r : Fin 8388608) (q : Fin 8) :
    val_main_v120 (F := F) A B C (ix2 r q) = digitCol A B C q (ix2 r (0 : Fin 1)) := by
  unfold val_main_v120
  show concatenate S8388608x8 1 (List.ofFn fun n : Fin 8 => (⟨S8388608x1, digitCol A B C n⟩ : (s : Shape) × (s.Idx → _))) _ (ix2 r q) = _
  exact concatenate_ofFn_apply (t := S8388608x8) (s₁ := S8388608x1) (1 : Fin 2) (digitCol A B C) _ rfl 1 rfl (ix2 r q) q
    (by show q.val / 1 = q.val; omega) (ix2 r (0 : Fin 1)) (by show 0 = q.val % 1; omega)
    (fun b hb => by match b with | ⟨0, _⟩ => rfl | ⟨1, _⟩ => exact absurd rfl hb)

/-- The reference's first result is the sum array of the row-wise adder. -/
theorem result0_eq (A B : (⟨S8388608x8, .f32⟩ : BufTy).Contents (Elt F)) (C : (⟨S8388608x1, .f32⟩ : BufTy).Contents (Elt F)) :
    val_main_v120 (F := F) A B C = sums (n := 8388608) A B C := by
  funext i
  obtain ⟨r, q, rfl⟩ : ∃ (r : Fin 8388608) (q : Fin 8), i = ix2 r q := ⟨i 0, i 1, eq_ix2 i⟩
  rw [joined_apply, digitCol_apply, sums_ix2]

/-- The reference's second result is the carry array: the last carry column at row r is the row's carry-out. -/
theorem result1_eq (A B : (⟨S8388608x8, .f32⟩ : BufTy).Contents (Elt F)) (C : (⟨S8388608x1, .f32⟩ : BufTy).Contents (Elt F)) :
    val_main_v119 (F := F) A B C = carries (n := 8388608) A B C := by
  funext i
  obtain ⟨r, z, rfl⟩ : ∃ (r : Fin 8388608) (z : Fin 1), i = ix2 r z := ⟨i 0, i 1, eq_ix2 i⟩
  obtain rfl : z = 0 := Subsingleton.elim _ _
  rw [carries_ix2]
  unfold rowCarry
  rw [← cols_eq_row A r, ← cols_eq_row B r]
  rfl

end Cert.ReferenceIdeal.RefValue

end
-- ==== Proof.BlockValue.lean ====
/-
  What the kernel leaves in its two output blocks at one grid point, entry by entry.

  At a grid point the body sees a block of 1024 rows of each argument. It takes the eight columns of the two word
  blocks as slices [0:1024, k:k+1], runs the ripple-carry chain on those columns with elementwise operations, joins
  the eight sum columns along axis 1 and stores the joined block and the last carry column. Read at row p, a sum
  column is the row's sum digit and the carry column the row's carry-out (the same expressions, with column k read at
  row p in place of digit k), so the stored blocks are the row-wise adder of the three input blocks.
-/
import proofs.«143201_j23407571764128_2_alg».proof.Proof.Gen.KernelIdeal.Value
import proofs.«143201_j23407571764128_2_alg».proof.Proof.RippleSpec

noncomputable section

namespace Cert.KernelIdeal.BlockValue

open Cert.KernelIdeal Cert.KernelIdeal.Gen Cert.KernelIdeal.Value
open Idealize.ShloMosaic Idealize.ShloMosaic.ValueIdx Cert.Ripple

variable {F : FTy → Type} [FloatOps F]

theorem zero_off : (![0, 0] : Fin 2 → Nat) = fun _ => 0 := funext fun a => by fin_cases a <;> rfl

/-- A sum column is indexed by the row alone: entry (p, q) of the joined block is read at (p, 0) of column q. -/
theorem col_index (p : Fin 1024) (q : Fin 8) : ix3_0 (ix2 p q) = ix2 p (0 : Fin 1) := by
  funext a; match a with | ⟨0, _⟩ => rfl | ⟨1, _⟩ => rfl

/-- Sum column q of the block, read at row p, is the sum digit's expression over the columns of the two word blocks read
    at row p. -/
theorem sum_col_apply (x0 x1 : Vec F S1024x8 .f32) (x2 : Vec F S1024x1 .f32) (p : Fin 1024) (q : Fin 8) :
    Cat3_0 x0 x1 x2 q (ix2 p (0 : Fin 1))
      = sumDigit (fun k : Fin 8 => extractStridedSlice (Arr1 1024) ![0, k.val] x0 (col_slices 1024 k) (ix2 p (0 : Fin 1)))
          (fun k : Fin 8 => extractStridedSlice (Arr1 1024) ![0, k.val] x1 (col_slices 1024 k) (ix2 p (0 : Fin 1)))
          (x2 (ix2 p (0 : Fin 1))) q := by
  match q with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The block of sums the body stores, at (p, q), is sum digit q of row p of the input blocks. -/
theorem block_sums (x0 x1 : Vec F S1024x8 .f32) (x2 : Vec F S1024x1 .f32) (p : Fin 1024) (q : Fin 8) :
    out0_3 x0 x1 x2 (ix2 p q) = rowSum (n := 1024) x0 x1 x2 p q := by
  have e : out0_3 x0 x1 x2 (ix2 p q) = E3 x0 x1 x2 (ix2 p q) := by
    unfold out0_3
    simp only [View.ld_unit_zero (S := S1024x8) zero_off, View.ld_unit_zero (S := S1024x1) zero_off]
    exact canon3_eq x0 x1 x2 (ix2 p q)
  refine e.trans ?_
  show Cat3_0 x0 x1 x2 q (ix3_0 (ix2 p q)) = _
  rw [col_index, sum_col_apply, cols_eq_row x0 p, cols_eq_row x1 p]
  rfl

/-- The block of carries the body stores, at (p, 0), is the carry-out of row p of the input blocks. -/
theorem block_carries (x0 x1 : Vec F S1024x8 .f32) (x2 : Vec F S1024x1 .f32) (p : Fin 1024) :
    out0_4 x0 x1 x2 (ix2 p (0 : Fin 1)) = rowCarry (n := 1024) x0 x1 x2 p := by
  unfold out0_4
  rw [View.canon_unit_zero zero_off]
  simp only [View.ld_unit_zero (S := S1024x8) zero_off, View.ld_unit_zero (S := S1024x1) zero_off]
  rw [lay4_0_eq]
  unfold rowCarry
  rw [← cols_eq_row x0 p, ← cols_eq_row x1 p]
  rfl

end Cert.KernelIdeal.BlockValue

end
-- ==== Proof.ArrayValue.lean ====
/-
  The kernel's two result arrays after the run, as functions of the argument arrays.

  The grid has 8192 points; at point t every window's block is rows 1024·t … 1024·t + 1023 of its array (block index
  (t, 0) on all five windows). So row p of an input block at point t is row 1024·t + p of the argument, the block of
  sums and the block of carries the body stores at t hold the row-wise adder of those rows, and they are written back
  to the same rows of the result arrays. The 8192 blocks tile each result array, so the sum array ends as `sums` and
  the carry array as `carries` of the three argument arrays.
-/
import proofs.«143201_j23407571764128_2_alg».proof.Proof.BlockValue
import Idealize.ShloMosaic.Lib.Pipeline.Value

noncomputable section

namespace Cert.KernelIdeal.ArrayValue

open Cert.KernelIdeal Cert.KernelIdeal.Gen Cert.KernelIdeal.Value Cert.KernelIdeal.BlockValue
open Idealize.ShloMosaic Idealize.ShloMosaic.TcCoe Idealize.SL.Sem Idealize.ShloMosaic.ValueIdx Cert.Ripple
open Idealize.ShloMosaic.Pipeline (Dat)

variable {F : FTy → Type} [FloatOps F]
variable (m : (ℓ : Loc nD τ sig) → Buf (Elt F) ℓ) (ρ : Dev nD → PrngReg)

/-! ## Where a block sits -/

/-- The printed index maps, decided over the 8192 grid points: at point t each window's block index is (t, 0). -/
theorem block_index : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0) :=
  (by decide +kernel : ∀ t : Fin grid0.N, _)

/-- Entry (p, k) of the first word block at point t is entry (1024·t + p, k) of the first word array. -/
theorem block0_apply (c : Dev nD) (t : Fin cfg0.N) (p : Fin 1024) (k : Fin 8) (r : Fin 8388608)
    (hr : r.val = t.val * 1024 + p.val) :
    (iblk m c 0 t : Vec F S1024x8 .f32) (ix2 p k) = V m c main_arg0 (ix2 r k) := by
  obtain ⟨⟨e0, e1⟩, -⟩ := block_index t
  unfold iblk
  rw [View.read_apply]
  show V m c main_arg0 _ = V m c main_arg0 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 8 + 1 * k.val = k.val; rw [e1]; omega

/-- The same for the second word block. -/
theorem block1_apply (c : Dev nD) (t : Fin cfg0.N) (p : Fin 1024) (k : Fin 8) (r : Fin 8388608)
    (hr : r.val = t.val * 1024 + p.val) :
    (iblk m c 1 t : Vec F S1024x8 .f32) (ix2 p k) = V m c main_arg1 (ix2 r k) := by
  obtain ⟨-, ⟨e0, e1⟩, -⟩ := block_index t
  unfold iblk
  rw [View.read_apply]
  show V m c main_arg1 _ = V m c main_arg1 _
  congr 1
  funext a
  apply Fin.ext
  match a with
  | ⟨0, _⟩ => show win0_1.index t (0 : Fin 2) * 1024 + 1 * p.val = r.val; rw [e0, hr]; omega
  | ⟨1, _⟩ => show win0_1.index t (1 : Fin 2) * 8 + 1 * k.val = k.val; rw [e1]; omega

/-- Entry (p, 0) of the carry-in block at point t is entry (1024·t + p, 0) of the carry-in array. -/
theorem block2_apply (c : Dev nD) (t : Fin cfg0.N) (p : Fin 1024) (r : Fin 8388608)
    (hr : r.val = t.val * 1024 + p.val) :
    (iblk m c 2 t : Vec F S1024x1 .f32) (ix2 p (0 : Fin 1)) = V m c main_arg2 (ix2 r (0 : Fin 1)) := by
  obtain ⟨-, -, ⟨e0, e1⟩, -⟩ := block_index t
  unfold iblk
  rw [View.read_apply]
  show V m c main_arg2 _ = V m c main_arg2 _
  congr 1
  funext a
  apply Fin.ext
  match a with
  | ⟨0, _⟩ => show win0_2.index t (0 : Fin 2) * 1024 + 1 * p.val = r.val; rw [e0, hr]; omega
  | ⟨1, _⟩ => show win0_2.index t (1 : Fin 2) * 1 + 1 * 0 = 0; rw [e1]

/-! ## What a point writes back -/

/-- The block of sums at point t, at a block index j, is the sum array of the arguments at the array index i that
    sits under j: the row 1024·t + j₀ and the same digit. -/
theorem point_sums (c : Dev nD) (t : Fin cfg0.N) (j : S1024x8.Idx) (i : S8388608x8.Idx)
    (hi0 : (i 0).val = t.val * 1024 + (j 0).val) (hi1 : (i 1).val = (j 1).val) :
    out0_3 (iblk m c 0 t) (iblk m c 1 t) (iblk m c 2 t) j
      = sums (n := 8388608) (V m c main_arg0) (V m c main_arg1) (V m c main_arg2) i := by
  obtain ⟨p, q, rfl⟩ : ∃ (p : Fin 1024) (q : Fin 8), j = ix2 p q := ⟨j 0, j 1, eq_ix2 j⟩
  obtain ⟨r, q', rfl⟩ : ∃ (r : Fin 8388608) (q' : Fin 8), i = ix2 r q' := ⟨i 0, i 1, eq_ix2 i⟩
  have hr : r.val = t.val * 1024 + p.val := hi0
  obtain rfl : q = q' := Fin.ext hi1.symm
  refine (block_sums (iblk m c 0 t) (iblk m c 1 t) (iblk m c 2 t) p q).trans ?_
  refine (rowSum_congr (n := 1024) (n' := 8388608) (iblk m c 0 t) (iblk m c 1 t) (iblk m c 2 t)
    (V m c main_arg0) (V m c main_arg1) (V m c main_arg2) p r (fun k => block0_apply m c t p k r hr)
    (fun k => block1_apply m c t p k r hr) (block2_apply m c t p r hr) q).trans ?_
  exact (sums_ix2 (V m c main_arg0) (V m c main_arg1) (V m c main_arg2) r q).symm

/-- The block of carries at point t, at a block index j, is the carry array of the arguments at the array index under j. -/
theorem point_carries (c : Dev nD) (t : Fin cfg0.N) (j : S1024x1.Idx) (i : S8388608x1.Idx)
    (hi0 : (i 0).val = t.val * 1024 + (j 0).val) :
    out0_4 (iblk m c 0 t) (iblk m c 1 t) (iblk m c 2 t) j
      = carries (n := 8388608) (V m c main_arg0) (V m c main_arg1) (V m c main_arg2) i := by
  obtain ⟨p, z, rfl⟩ : ∃ (p : Fin 1024) (z : Fin 1), j = ix2 p z := ⟨j 0, j 1, eq_ix2 j⟩
  obtain rfl : z = 0 := Subsingleton.elim _ _
  obtain ⟨r, z', rfl⟩ : ∃ (r : Fin 8388608) (z' : Fin 1), i = ix2 r z' := ⟨i 0, i 1, eq_ix2 i⟩
  have hr : r.val = t.val * 1024 + p.val := hi0
  refine (block_carries (iblk m c 0 t) (iblk m c 1 t) (iblk m c 2 t) p).trans ?_
  refine (rowCarry_congr (n := 1024) (n' := 8388608) (iblk m c 0 t) (iblk m c 1 t) (iblk m c 2 t)
    (V m c main_arg0) (V m c main_arg1) (V m c main_arg2) p r (fun k => block0_apply m c t p k r hr)
    (fun k => block1_apply m c t p k r hr) (block2_apply m c t p r hr)).trans ?_
  exact (carries_ix2 (V m c main_arg0) (V m c main_arg1) (V m c main_arg2) r z').symm

/-- What point t writes back to the sum array is block t of the sum array of the arguments. -/
theorem flushed_sums (c : Dev nD) (t : Fin cfg0.N) :
    (dats m 0 c).flushed 3 t = ((cfg0.win 3).blk t).view.read (Elt F)
      (sums (n := 8388608) (V m c main_arg0) (V m c main_arg1) (V m c main_arg2)) := by
  obtain ⟨-, -, -, ⟨e0, e1⟩, -⟩ := block_index t
  rw [flushed3]
  funext j
  show out0_3 (iblk m c 0 t) (iblk m c 1 t) (iblk m c 2 t) j
    = sums (n := 8388608) (V m c main_arg0) (V m c main_arg1) (V m c main_arg2) (((cfg0.win 3).blk t).view.emb j)
  refine point_sums m c t j _ ?_ ?_
  · show win0_3.index t (0 : Fin 2) * 1024 + 1 * (j 0).val = t.val * 1024 + (j 0).val; rw [e0]; omega
  · show win0_3.index t (1 : Fin 2) * 8 + 1 * (j 1).val = (j 1).val; rw [e1]; omega

/-- What point t writes back to the carry array is block t of the carry array of the arguments. -/
theorem flushed_carries (c : Dev nD) (t : Fin cfg0.N) :
    (dats m 0 c).flushed 4 t = ((cfg0.win 4).blk t).view.read (Elt F)
      (carries (n := 8388608) (V m c main_arg0) (V m c main_arg1) (V m c main_arg2)) := by
  obtain ⟨-, -, -, -, ⟨e0, e1⟩⟩ := block_index t
  rw [flushed4]
  funext j
  show out0_4 (iblk m c 0 t) (iblk m c 1 t) (iblk m c 2 t) j
    = carries (n := 8388608) (V m c main_arg0) (V m c main_arg1) (V m c main_arg2) (((cfg0.win 4).blk t).view.emb j)
  refine point_carries m c t j _ ?_
  show win0_4.index t (0 : Fin 2) * 1024 + 1 * (j 0).val = t.val * 1024 + (j 0).val; rw [e0]; omega

/-! ## The blocks tile the arrays -/

/-- Row i₀ of the sum array lies in the block of point i₀ / 1024. -/
theorem cover_sums (i : S8388608x8.Idx) :
    ∃ t : Fin cfg0.N, (cfg0.win 3).flush t = true ∧ i ∈ ((cfg0.win 3).blk t).view.set := by
  have hi0 : (i 0).val < 8388608 := (i 0).isLt
  have hi1 : (i 1).val < 8 := (i 1).isLt
  have hN : grid0.N = 8192 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, ⟨e0, e1⟩, -⟩ := block_index t
  refine ⟨t, flush0_3 t, ?_⟩
  show i ∈ ((View.whole main_v0_0).slice (win0_3.rect t)).set
  rw [View.set_slice_whole, Rect.mem_set_unit]
  intro a
  match a with
  | ⟨0, _⟩ =>
    show win0_3.index t (0 : Fin 2) * 1024 ≤ (i 0).val ∧ (i 0).val < win0_3.index t (0 : Fin 2) * 1024 + 1024
    rw [e0, ht]; omega
  | ⟨1, _⟩ =>
    show win0_3.index t (1 : Fin 2) * 8 ≤ (i 1).val ∧ (i 1).val < win0_3.index t (1 : Fin 2) * 8 + 8
    rw [e1]; omega

/-- Row i₀ of the carry array lies in the block of point i₀ / 1024. -/
theorem cover_carries (i : S8388608x1.Idx) :
    ∃ t : Fin cfg0.N, (cfg0.win 4).flush t = true ∧ i ∈ ((cfg0.win 4).blk t).view.set := by
  have hi0 : (i 0).val < 8388608 := (i 0).isLt
  have hi1 : (i 1).val < 1 := (i 1).isLt
  have hN : grid0.N = 8192 := N_0
  obtain ⟨t, ht⟩ : ∃ t : Fin cfg0.N, t.val = (i 0).val / 1024 :=
    ⟨⟨(i 0).val / 1024, by show (i 0).val / 1024 < grid0.N; rw [hN]; omega⟩, rfl⟩
  obtain ⟨-, -, -, -, ⟨e0, e1⟩⟩ := block_index t
  refine ⟨t, flush0_4 t, ?_⟩
  show i ∈ ((View.whole main_v0_1).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1 ≤ (i 1).val ∧ (i 1).val < win0_4.index t (1 : Fin 2) * 1 + 1
    rw [e1]; omega

/-! ## The arrays after the run -/

/-- The sum array after the last point is the sum array of the arguments. -/
theorem final_sums (c : Dev nD) : (dats m 0 c).arrAt 3 cfg0.N
    = sums (n := 8388608) (m ((c : Thread nD τ).loc main_arg0)) (m ((c : Thread nD τ).loc main_arg1)) (m ((c : Thread nD τ).loc main_arg2)) :=
  (dats m 0 c).arrAt_eq_of_cover 3 _ (fun t _ => flushed_sums m c t) cover_sums

/-- The carry array after the last point is the carry array of the arguments. -/
theorem final_carries (c : Dev nD) : (dats m 0 c).arrAt 4 cfg0.N
    = carries (n := 8388608) (m ((c : Thread nD τ).loc main_arg0)) (m ((c : Thread nD τ).loc main_arg1)) (m ((c : Thread nD τ).loc main_arg2)) :=
  (dats m 0 c).arrAt_eq_of_cover 4 _ (fun t _ => flushed_carries m c t) cover_carries

/-- Every weakly fair execution of the kernel's program ends with the two result arrays at the row-wise adder of the
    argument arrays, and the arguments unchanged. -/
theorem run : θ_run defs (onTc (τ := τ) (main (F := F))) ⟨m, fun _ => 0, ρ⟩ fun r => ∀ c : Dev nD,
      r.2.mem ((c : Thread nD τ).loc main_v0_0)
        = sums (n := 8388608) (m ((c : Thread nD τ).loc main_arg0)) (m ((c : Thread nD τ).loc main_arg1)) (m ((c : Thread nD τ).loc main_arg2))
      ∧ r.2.mem ((c : Thread nD τ).loc main_v0_1)
        = carries (n := 8388608) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final_sums m c), (h c).2.1.trans (final_carries m c), (h c).2.2⟩)
    (run_blocks m ρ)

end Cert.KernelIdeal.ArrayValue

end
-- ==== Proof.lean ====
/-
  The kernel against its reference: an 8-digit ripple-carry adder on arithmetic digits, 8388608 rows at a time.

  Both programs take two word arrays A, B of shape [8388608, 8] (digit 0 the most significant) and a carry-in array
  Cin of shape [8388608, 1], and return the array of sum digits and the array of carry-outs. With x ⊕ y = x + y − 2·x·y,
  digit j of a row's sum is (a j ⊕ b j) ⊕ c and the carry passed on is a j · b j + c · (a j ⊕ b j), the carry rippling
  from digit 7 up to digit 0. The kernel cuts the rows into 8192 blocks of 1024 and runs the chain on each block's
  columns; the reference runs the same chain on the whole arrays' columns. The two evaluate the same expression, in the
  same order of operations, at every entry: no law of arithmetic joins them, so nothing is used of the extended reals
  and finiteness of the inputs is not needed for the equation (it is only the hypothesis under which the claims are
  stated).

  Proof/RippleSpec.lean states the adder of one row and of an array of rows; Proof/RefValue.lean shows the reference's
  two results are that adder's arrays; Proof/BlockValue.lean shows the same of the blocks the kernel's body stores at
  one grid point; Proof/ArrayValue.lean places the blocks in the arrays (block t is rows 1024·t … 1024·t + 1023, and
  the blocks tile the arrays) and reads the kernel's run. Here the five claims are assembled: the three frames are
  the generated frame runs (the reference's is its run with the results dropped), the idealization rewrote nothing,
  and the two idealized programs end with equal results because both end with the same arrays of the same arguments.
-/
import proofs.«143201_j23407571764128_2_alg».proof.Defs
import proofs.«143201_j23407571764128_2_alg».proof.Proof.Gen.Kernel
import proofs.«143201_j23407571764128_2_alg».proof.Proof.Gen.Kernel.Skeleton
import proofs.«143201_j23407571764128_2_alg».proof.Proof.Gen.Kernel.Launch
import proofs.«143201_j23407571764128_2_alg».proof.Proof.Gen.Kernel.Points
import proofs.«143201_j23407571764128_2_alg».proof.Proof.Gen.Kernel.Frame
import proofs.«143201_j23407571764128_2_alg».proof.Proof.Gen.KernelIdeal
import proofs.«143201_j23407571764128_2_alg».proof.Proof.Gen.KernelIdeal.Skeleton
import proofs.«143201_j23407571764128_2_alg».proof.Proof.Gen.KernelIdeal.Launch
import proofs.«143201_j23407571764128_2_alg».proof.Proof.Gen.KernelIdeal.Points
import proofs.«143201_j23407571764128_2_alg».proof.Proof.Gen.KernelIdeal.Frame
import proofs.«143201_j23407571764128_2_alg».proof.Proof.Gen.ReferenceIdeal
import proofs.«143201_j23407571764128_2_alg».proof.Proof.Gen.KernelIdeal.Value
import proofs.«143201_j23407571764128_2_alg».proof.Proof.Gen.ReferenceIdeal.Run
import proofs.«143201_j23407571764128_2_alg».proof.Proof.Gen.ReferenceIdeal.Read
import proofs.«143201_j23407571764128_2_alg».proof.Proof.Gen.Pre_finite_inputs
import proofs.«143201_j23407571764128_2_alg».proof.Proof.RefValue
import proofs.«143201_j23407571764128_2_alg».proof.Proof.ArrayValue
import Idealize.ShloMosaic.Adequacy
import Idealize.ShloMosaic.Init

noncomputable section

namespace Cert.Proof

open Idealize.ShloMosaic Idealize.ShloMosaic.TcCoe Idealize.SL.Sem Cert.Ripple

/-- The kernel as printed runs to the end without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a sequence of host operations: its run, with what it says of the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel. -/
theorem preserves : Cert.preserves_Kernel_KernelIdeal := trivial

/-- From memories that agree on the three arguments, the idealized kernel ends with the sum and carry arrays of the
    row-wise adder of its arguments (its run, read block by block), and the idealized reference with the same two arrays
    of its own arguments (its run, read operation by operation), which are the kernel's arguments. -/
theorem algebraic : Cert.algebraic_KernelIdeal_ReferenceIdeal := by
  intro m ρ m' ρ' _ hagree
  refine ⟨_, _, Cert.KernelIdeal.ArrayValue.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v120_eq, Cert.ReferenceIdeal.RefValue.result0_eq,
      (hagree c).1, (hagree c).2.1, (hagree c).2.2]
  · rw [Cert.ReferenceIdeal.Read.val_main_v119_eq, Cert.ReferenceIdeal.RefValue.result1_eq,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
